-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1x4096x2048 : Shape := ⟨3, ![1, 4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x4096x2048 : S_.BroadcastsInDim S1x4096x2048 (![] : Fin 0 → Fin S1x4096x2048.rank)
  reducesTo_S1x4096x2048_S_d0_1_2 : S1x4096x2048.ReducesTo [0, 1, 2] S_

variable [Facts]

def fn {F : FTy → Type} [FloatOps F] (main_arg0 : FVec F S4096x2048 .f32) (main_arg1 : FVec F S1x4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x4096x2048 .f32 := Host.absf main_arg1
  let main_cst_0 : FVec F S_ .f32 := constant S_ .f32 0x7F800000#32
  let main_v5 : FVec F S1x4096x2048 .f32 := broadcastInDim S1x4096x2048 ![] bcast_S_S1x4096x2048 main_cst_0
  let main_v6 : IVec S1x4096x2048 1 := cmpf .olt main_v4 main_v5
  let main_c_1 : IVec S_ 1 := constantI S_ 1 1#1
  let main_v7 : IVec S_ 1 := (fun x v => Host.reduce IntOp.andi x v reducesTo_S1x4096x2048_S_d0_1_2 h_S_) main_v6 main_c_1
  let main_v8 : IVec S_ 1 := andi main_v3 main_v7
  main_v8
-- ==== Kernel.lean ====
abbrev S4096x2048 : Shape := ⟨2, ![4096, 2048]⟩
abbrev S1x4096x2048 : Shape := ⟨3, ![1, 4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x4096x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x4096, .bf16⟩
  | .hbm, ⟨6, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x4096x2048_S4096x2048 : S1x4096x2048.ShapeCasts S4096x2048
  bitsLt_bf16_f32 : FTy.bits .bf16 < FTy.bits .f32
  transposes_S4096x2048_S2048x4096_1_0 : S4096x2048.Transposes [1, 0] S2048x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x4096.size a
  hwx0_1 : ∀ i : grid0.Coords, EltTy.bits .bf16 = 32 ∨ (Rect.block (s := S2048x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1x4096x2048 : Shape := ⟨3, ![1, 4096, 2048]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x4096x2048, .f32⟩
  | .hbm, ⟨2, _⟩ => ⟨S4096x2048, .f32⟩
  | .hbm, ⟨3, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S1x4096x2048_S4096x2048 : S1x4096x2048.ShapeCasts S4096x2048
  dot_S4096x2048_S4096x2048_S4096x4096_1_1_0_0_n_n_wf : DotDims.WF S4096x2048 S4096x2048 S4096x4096 [1] [1] [0] [0] [] []

variable [Facts₀]

def dot_S4096x2048_S4096x2048_S4096x4096_1_1_0_0_n_n : DotDims S4096x2048 S4096x2048 S4096x4096 where
  lhsContracting := [1]
  rhsContracting := [1]
  lhsNonContracting := [0]
  rhsNonContracting := [0]
  lhsBatch := []
  rhsBatch := []
  wf := dot_S4096x2048_S4096x2048_S4096x4096_1_1_0_0_n_n_wf

class Facts : Prop extends Facts₀ where

variable [Facts]
-- ==== Proof.Projection.lean ====
/-
  The projection both programs compute, as one function of the two arguments.

  With `x` of shape [4096, 2048] and `w` of shape [1, 4096, 2048], the result at row `b` and column `o` is
  `∑ k, x(b, k) · w(0, o, k)`: row `b` of `x` against row `o` of the one matrix held in `w`, a sum of 2048 products on
  the extended reals. Nothing here needs the entries to be finite: the two programs will be shown to compute this very
  sum, term by term, and a finite sum does not depend on the order of its terms.
-/
import Idealize.ShloMosaic.PureOps.Ideal
import Idealize.ShloMosaic.Lib.ValueIdx

noncomputable section

namespace Cert.Projection

open Idealize.ShloMosaic Idealize.ShloMosaic.ValueIdx

/-- One entry of the result: row `b` of `x` against row `o` of the matrix. -/
def entry (x : FVec Ideal ⟨2, ![4096, 2048]⟩ .f32) (w : FVec Ideal ⟨3, ![1, 4096, 2048]⟩ .f32) (b o : Fin 4096) : EReal :=
  ∑ k : Fin 2048, x (ix2 b k) * w (ix3 (0 : Fin 1) o k)

/-- The whole result array [4096, 4096]. -/
def proj (x : FVec Ideal ⟨2, ![4096, 2048]⟩ .f32) (w : FVec Ideal ⟨3, ![1, 4096, 2048]⟩ .f32) :
    FVec Ideal ⟨2, ![4096, 4096]⟩ .f32 :=
  fun i => entry x w (i 0) (i 1)

/-- The result at an index written by its coordinates. -/
theorem proj_ix2 (x : FVec Ideal ⟨2, ![4096, 2048]⟩ .f32) (w : FVec Ideal ⟨3, ![1, 4096, 2048]⟩ .f32) (b o : Fin 4096) :
    proj x w (ix2 b o) = entry x w b o := rfl

end Cert.Projection

end
-- ==== Proof.Reference.lean ====
/-
  The reference computes the projection.

  The reference first drops the leading unit axis of the matrix ([1, 4096, 2048] to [4096, 2048]) and then contracts the
  last axis of `x` against the last axis of that matrix. Read at an index `(b, o)` this is the sum over `k` of
  `x(b, k)` times the reshaped matrix at `(o, k)`, and the reshaped matrix at `(o, k)` is the given one at
  `(0, o, k)`, because position `o · 2048 + k` of the flat order has row `o` and column `k`.
-/
import proofs.«165112_j29678224016022_2_alg».proof.Proof.Gen.ReferenceIdeal.Read
import proofs.«165112_j29678224016022_2_alg».proof.Proof.Projection

noncomputable section

namespace Cert.ReferenceIdeal.Bridge

open Cert.ReferenceIdeal Cert.ReferenceIdeal.Gen Idealize.ShloMosaic Idealize.ShloMosaic.ValueIdx

/-- The reference's result, as a function of its two arguments, is the projection. -/
theorem reference_is_proj (x0 : (⟨S4096x2048, .f32⟩ : BufTy).Contents (Elt Ideal))
    (x1 : (⟨S1x4096x2048, .f32⟩ : BufTy).Contents (Elt Ideal)) :
    Read.val_main_v1 (F := Ideal) x0 x1 = Cert.Projection.proj x0 x1 := by
  funext i
  rw [Read.val_main_v1_apply]
  show _ = Cert.Projection.entry x0 x1 (i 0) (i 1)
  unfold Cert.Projection.entry
  refine Finset.sum_congr rfl fun k _ => ?_
  rw [Read.val_main_v0_apply]
  have el : Read.lidx_main_v1 i k = ix2 (i 0) k := funext fun a => by
    match a with
    | ⟨0, _⟩ => rfl
    | ⟨1, _⟩ => rfl
  have er : Read.idx_main_v0 (Read.ridx_main_v1 i k) = ix3 (0 : Fin 1) (i 1) k := funext fun a => Fin.ext (by
    have h1 : (i 1).val < 4096 := (i 1).isLt
    have hk : k.val < 2048 := k.isLt
    match a with
    | ⟨0, _⟩ => rfl
    | ⟨1, _⟩ => show ((i 1).val * 2048 + k.val) / 2048 % 4096 = (i 1).val; omega
    | ⟨2, _⟩ => show ((i 1).val * 2048 + k.val) % 2048 = k.val; omega)
  rw [el, er]
  rfl

end Cert.ReferenceIdeal.Bridge

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.BlockProduct.lean ====
/-
  What the kernel body computes from its two blocks.

  At one grid point the body holds a block of 1024 rows of the left operand ([1024, 2048]) and a block of 1024 columns
  of the right operand ([2048, 1024]) and stores their matrix product, accumulated from zero. At `(r, c)` of the
  [1024, 1024] result this is the sum over `k` of the left block at `(r, k)` times the right block at `(k, c)`. The
  two shape casts the body applies keep the shape, so they are the identity.
-/
import proofs.«165112_j29678224016022_2_alg».proof.Proof.Gen.KernelIdeal.Skeleton
import proofs.«165112_j29678224016022_2_alg».proof.Proof.LibMatmulPlain
import Idealize.ShloMosaic.Lib.Pipeline.Value

noncomputable section

namespace Cert.KernelIdeal.Bridge

open Cert.KernelIdeal Cert.KernelIdeal.Gen Idealize.ShloMosaic Idealize.ShloMosaic.ValueIdx

/-- The body's stored value at `(r, c)`: the block product as a sum over the 2048 contracted positions. -/
theorem block_product (x0 : FVec Ideal S1024x2048 .bf16) (x1 : FVec Ideal S2048x1024 .bf16) (r c : Fin 1024) :
    k0_pay1 (F := Ideal) x0 x1 (ix2 r c) = ∑ k : Fin 2048, x0 (ix2 r k) * x1 (ix2 k c) := by
  unfold k0_pay1
  simp only [shapeCast_self]
  exact Cert.LibMatmulPlain.matmul_plain_zero_apply none x0 x1 r c

end Cert.KernelIdeal.Bridge

end
-- ==== Proof.Operands.lean ====
/-
  The two arrays the kernel region reads, as functions of the program's arguments.

  Before the region the program rounds `x` to bf16 — the identity on the extended reals — and that is the left
  operand [4096, 2048]. For the right operand it drops the matrix's leading unit axis, rounds to bf16, and transposes:
  the right operand [2048, 4096] at `(k, o)` is the given matrix at `(0, o, k)`.
-/
import proofs.«165112_j29678224016022_2_alg».proof.Proof.Gen.KernelIdeal.Frame
import Idealize.ShloMosaic.Lib.StableHlo.Run
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The left operand as the region finds it: `x` rounded to bf16. -/
theorem left_operand (c : Dev nD) :
    (V m c main_v1 : S4096x2048.Idx → EReal)
      = truncf (F := Ideal) .bf16 (m ((c : Thread nD τ).loc main_arg0) : FVec Ideal S4096x2048 .f32) bitsLt_bf16_f32 := by
  dsimp only [Gen.V, Gen.hostOps0]; after_results <;> rfl

/-- The right operand as the region finds it: the matrix without its unit axis, rounded to bf16, transposed. -/
theorem right_operand (c : Dev nD) :
    (V m c main_v3 : S2048x4096.Idx → EReal)
      = transpose S2048x4096 [1, 0]
          (truncf (F := Ideal) .bf16
            (shapeCast S4096x2048 (m ((c : Thread nD τ).loc main_arg1) : FVec Ideal S1x4096x2048 .f32) shapeCasts_S1x4096x2048_S4096x2048)
            bitsLt_bf16_f32)
          transposes_S4096x2048_S2048x4096_1_0 := by
  dsimp only [Gen.V, Gen.hostOps0]; after_results <;> rfl

/-- The left operand at `(b, k)` is `x` at `(b, k)`. -/
theorem left_operand_apply (c : Dev nD) (b : Fin 4096) (k : Fin 2048) :
    (V m c main_v1 : S4096x2048.Idx → EReal) (ix2 b k)
      = (m ((c : Thread nD τ).loc main_arg0) : S4096x2048.Idx → EReal) (ix2 b k) := by
  rw [left_operand]; rfl

/-- The right operand at `(k, o)` is the matrix at `(0, o, k)`. -/
theorem right_operand_apply (c : Dev nD) (k : Fin 2048) (o : Fin 4096) :
    (V m c main_v3 : S2048x4096.Idx → EReal) (ix2 k o)
      = (m ((c : Thread nD τ).loc main_arg1) : S1x4096x2048.Idx → EReal) (ix3 (0 : Fin 1) o k) := by
  rw [right_operand, transpose_ix2_apply]
  exact shapeCast_1ab_ab_apply _ _ o k

end Cert.KernelIdeal.Bridge

end
-- ==== Proof.Blocks.lean ====
/-
  From the kernel's blocks to its whole result array.

  The grid has 4 × 4 points. At point `(p, q)` the kernel reads rows `1024·p … 1024·p + 1023` of the left operand (all
  2048 columns), columns `1024·q … 1024·q + 1023` of the right operand (all 2048 rows), and writes block `(p, q)` of the
  [4096, 4096] result. So entry `(r, c)` of that block is the sum over `k` of the left operand at `(1024·p + r, k)` times
  the right operand at `(k, 1024·q + c)`, which is the projection at `(1024·p + r, 1024·q + c)`: every point writes its
  own block of ONE function of the arguments, the sixteen blocks cover the array, and the array ends holding that function.
-/
import proofs.«165112_j29678224016022_2_alg».proof.Proof.Gen.KernelIdeal.Value
import proofs.«165112_j29678224016022_2_alg».proof.Proof.BlockProduct
import proofs.«165112_j29678224016022_2_alg».proof.Proof.Operands
import proofs.«165112_j29678224016022_2_alg».proof.Proof.Projection

noncomputable section

namespace Cert.KernelIdeal.Bridge

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Projection

variable (m : (ℓ : Loc nD τ sig) → Buf (Elt Ideal) ℓ) (ρ : Dev nD → PrngReg)

theorem zero_offsets : (![0, 0] : Fin 2 → Nat) = fun _ => 0 := funext fun a => by fin_cases a <;> rfl

/-- Where the three windows' blocks sit at a point, decided over the sixteen points: the left operand's block has the
    output block's row position and spans all columns; the right operand's block spans all rows and has the output
    block's column position; the output's block positions are below 4. -/
theorem block_positions : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every one of the 4 × 4 output blocks is some point's. -/
theorem every_block : ∀ (p q : Fin 4), ∃ t : Fin cfg0.N, win0_2.index t = ![p.val, q.val] :=
  (by decide +kernel : ∀ (p q : Fin 4), ∃ t : Fin grid0.N, win0_2.index t = ![p.val, q.val])

/-- The left block at a point, at `(r, k)`, is `x` at row `1024·p + r`, column `k`. -/
theorem left_block (c : Dev nD) (t : Fin cfg0.N) (r : Fin 1024) (k : Fin 2048) (b : Fin 4096)
    (hb : b.val = win0_2.index t (0 : Fin 2) * 1024 + r.val) :
    (iblk m c 0 t : S1024x2048.Idx → EReal) (ix2 r k)
      = (m ((c : Thread nD τ).loc main_arg0) : S4096x2048.Idx → EReal) (ix2 b k) := by
  obtain ⟨e0, e1, -, -, -, -⟩ := block_positions t
  rw [← left_operand_apply m c b k]
  show (V m c main_v1 : S4096x2048.Idx → EReal) (((cfg0.win 0).blk t).view.emb (ix2 r k)) = _
  refine congrArg (V m c main_v1 : S4096x2048.Idx → EReal) ?_
  funext a
  apply Fin.ext
  match a with
  | ⟨0, _⟩ => show win0_0.index t (0 : Fin 2) * 1024 + 1 * r.val = b.val; omega
  | ⟨1, _⟩ => show win0_0.index t (1 : Fin 2) * 2048 + 1 * k.val = k.val; omega

/-- The right block at a point, at `(k, s)`, is the matrix at `(0, 1024·q + s, k)`. -/
theorem right_block (c : Dev nD) (t : Fin cfg0.N) (k : Fin 2048) (s : Fin 1024) (o : Fin 4096)
    (ho : o.val = win0_2.index t (1 : Fin 2) * 1024 + s.val) :
    (iblk m c 1 t : S2048x1024.Idx → EReal) (ix2 k s)
      = (m ((c : Thread nD τ).loc main_arg1) : S1x4096x2048.Idx → EReal) (ix3 (0 : Fin 1) o k) := by
  obtain ⟨-, -, e2, e3, -, -⟩ := block_positions t
  rw [← right_operand_apply m c k o]
  show (V m c main_v3 : S2048x4096.Idx → EReal) (((cfg0.win 1).blk t).view.emb (ix2 k s)) = _
  refine congrArg (V m c main_v3 : S2048x4096.Idx → EReal) ?_
  funext a
  apply Fin.ext
  match a with
  | ⟨0, _⟩ => show win0_1.index t (0 : Fin 2) * 2048 + 1 * k.val = k.val; omega
  | ⟨1, _⟩ => show win0_1.index t (1 : Fin 2) * 1024 + 1 * s.val = o.val; omega

/-- What a point writes back is its block of the projection of the arguments. -/
theorem flushed_is_proj (c : Dev nD) (t : Fin cfg0.N) :
    (dats m 0 c).flushed 2 t
      = ((cfg0.win 2).blk t).view.read (Elt Ideal)
          (proj (m ((c : Thread nD τ).loc main_arg0)) (m ((c : Thread nD τ).loc main_arg1))) := by
  rw [flushed2]
  unfold out0_2
  rw [View.canon_unit_zero zero_offsets]
  simp only [View.ld_unit_zero (S := S1024x2048) zero_offsets, View.ld_unit_zero (S := S2048x1024) zero_offsets]
  funext j
  obtain ⟨r, s, rfl⟩ : ∃ (r s : Fin 1024), j = ix2 r s := ⟨j 0, j 1, eq_ix2 j⟩
  obtain ⟨-, -, -, -, e4, e5⟩ := block_positions t
  have hr : r.val < 1024 := r.isLt
  have hs : s.val < 1024 := s.isLt
  have hb : win0_2.index t (0 : Fin 2) * 1024 + r.val < 4096 := by omega
  have ho : win0_2.index t (1 : Fin 2) * 1024 + s.val < 4096 := by omega
  have hemb : ((cfg0.win 2).blk t).view.emb (ix2 r s)
      = (ix2 (⟨_, hb⟩ : Fin 4096) (⟨_, ho⟩ : Fin 4096) : S4096x4096.Idx) := by
    funext a
    apply Fin.ext
    match a with
    | ⟨0, _⟩ => show win0_2.index t (0 : Fin 2) * 1024 + 1 * r.val = win0_2.index t (0 : Fin 2) * 1024 + r.val; omega
    | ⟨1, _⟩ => show win0_2.index t (1 : Fin 2) * 1024 + 1 * s.val = win0_2.index t (1 : Fin 2) * 1024 + s.val; omega
  show k0_pay1 (F := Ideal) (iblk m c 0 t) (iblk m c 1 t) (ix2 r s)
    = proj (m ((c : Thread nD τ).loc main_arg0)) (m ((c : Thread nD τ).loc main_arg1)) (((cfg0.win 2).blk t).view.emb (ix2 r s))
  rw [hemb, proj_ix2]
  refine (block_product (iblk m c 0 t) (iblk m c 1 t) r s).trans ?_
  unfold entry
  refine Finset.sum_congr rfl fun k _ => ?_
  exact congrArg₂ (· * ·) (left_block m c t r k ⟨_, hb⟩ rfl) (right_block m c t k s ⟨_, ho⟩ rfl)

/-- An index of the result array lies in a point's block iff each coordinate lies in the block's range on its axis. -/
theorem mem_block (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v4).slice (win0_2.rect t)).set ↔ _
  rw [View.set_slice_whole, Rect.mem_set_unit]
  exact Iff.rfl

/-- Every index of the result array lies in some point's block: the one at block row `i₀ / 1024`, block column `i₁ / 1024`. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := every_block ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after the run is the projection of the arguments. -/
theorem result_is_proj (c : Dev nD) :
    (dats m 0 c).arrAt 2 cfg0.N = proj (m ((c : Thread nD τ).loc main_arg0)) (m ((c : Thread nD τ).loc main_arg1)) :=
  (dats m 0 c).arrAt_eq_of_cover 2 (proj (m ((c : Thread nD τ).loc main_arg0)) (m ((c : Thread nD τ).loc main_arg1)))
    (fun t _ => flushed_is_proj m c t) covered

/-- The kernel program's run: it terminates with the result array at the projection of the arguments and the
    arguments unchanged. -/
theorem run : θ_run defs (onTc (τ := τ) (main (F := Ideal))) ⟨m, fun _ => 0, ρ⟩ fun r => ∀ c : Dev nD,
      r.2.mem ((c : Thread nD τ).loc main_v4) = proj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_is_proj m c), (h c).2⟩) (run_blocks m ρ)

end Cert.KernelIdeal.Bridge

end
-- ==== Proof.lean ====
/-
  A linear projection `out(b, o) = ∑ k, x(b, k) · w(0, o, k)` of `x` : [4096, 2048] by the one matrix in `w` : [1, 4096, 2048],
  computed two ways, and equal on the extended reals.

  The kernel program rounds both operands to bf16 (the identity on the extended reals), transposes the matrix, and
  multiplies block by block on a 4 × 4 grid: point `(p, q)` multiplies 1024 rows of `x` by 1024 columns of the transposed
  matrix over the whole contraction axis and writes block `(p, q)` of the result. Each block is the matching block of the
  projection (Proof/BlockProduct.lean for the block product, Proof/Operands.lean for the operand arrays, Proof/Blocks.lean
  for the blocks and their cover), so the kernel's result array is the projection of the arguments. The reference contracts
  the last axis of `x` with the last axis of the matrix directly, which read at an index is the same sum
  (Proof/Reference.lean). Both are the function `Cert.Projection.proj` (Proof/Projection.lean) term by term, so no
  finiteness of the inputs is used. Each program's run and the arguments' staying unchanged come from the generated frame
  and run modules; the idealized kernel is the kernel's own text, so nothing is owed for the idealization.
-/
import proofs.«165112_j29678224016022_2_alg».proof.Defs
import proofs.«165112_j29678224016022_2_alg».proof.Proof.Gen.Kernel
import proofs.«165112_j29678224016022_2_alg».proof.Proof.Gen.Kernel.Skeleton
import proofs.«165112_j29678224016022_2_alg».proof.Proof.Gen.Kernel.Launch
import proofs.«165112_j29678224016022_2_alg».proof.Proof.Gen.Kernel.Points
import proofs.«165112_j29678224016022_2_alg».proof.Proof.Gen.Kernel.Frame
import proofs.«165112_j29678224016022_2_alg».proof.Proof.Gen.KernelIdeal
import proofs.«165112_j29678224016022_2_alg».proof.Proof.Gen.KernelIdeal.Skeleton
import proofs.«165112_j29678224016022_2_alg».proof.Proof.Gen.KernelIdeal.Launch
import proofs.«165112_j29678224016022_2_alg».proof.Proof.Gen.KernelIdeal.Points
import proofs.«165112_j29678224016022_2_alg».proof.Proof.Gen.KernelIdeal.Frame
import proofs.«165112_j29678224016022_2_alg».proof.Proof.Gen.ReferenceIdeal
import proofs.«165112_j29678224016022_2_alg».proof.Proof.Gen.KernelIdeal.Value
import proofs.«165112_j29678224016022_2_alg».proof.Proof.Gen.ReferenceIdeal.Run
import proofs.«165112_j29678224016022_2_alg».proof.Proof.Gen.ReferenceIdeal.Read
import proofs.«165112_j29678224016022_2_alg».proof.Proof.Gen.Pre_finite_inputs
import proofs.«165112_j29678224016022_2_alg».proof.Proof.Projection
import proofs.«165112_j29678224016022_2_alg».proof.Proof.Reference
import proofs.«165112_j29678224016022_2_alg».proof.Proof.Blocks
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the projection of those arguments in their result arrays. -/
theorem algebraic : Cert.algebraic_KernelIdeal_ReferenceIdeal := by
  intro m ρ m' ρ' _ hagree
  refine ⟨fun c => Cert.Projection.proj
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Bridge.reference_is_proj, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
